-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S256x256 .f32) (main_arg3 : FVec F S256x256 .f32) (main_arg4 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S400x10000 : Shape := ⟨2, ![400, 10000]⟩
abbrev S400x256 : Shape := ⟨2, ![400, 256]⟩
abbrev S1000x10000 : Shape := ⟨2, ![1000, 10000]⟩
abbrev S1000x256 : Shape := ⟨2, ![1000, 256]⟩

abbrev nBuf : Space → Nat
  | .hbm => 10
  | .vmem => 20
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S10000x256, .bf16⟩
  | .hbm, ⟨6, _⟩ => ⟨S10000x256, .bf16⟩
  | .hbm, ⟨7, _⟩ => ⟨S10000x10000, .bf16⟩
  | .hbm, ⟨8, _⟩ => ⟨S10000x256, .bf16⟩
  | .hbm, ⟨9, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S256x256, .f32⟩
  | .local _ .vmem, ⟨4, _⟩ => ⟨S256x256, .f32⟩
  | .local _ .vmem, ⟨5, _⟩ => ⟨S400x256, .bf16⟩
  | .local _ .vmem, ⟨6, _⟩ => ⟨S400x256, .bf16⟩
  | .local _ .vmem, ⟨7, _⟩ => ⟨S400x10000, .bf16⟩
  | .local _ .vmem, ⟨8, _⟩ => ⟨S400x10000, .bf16⟩
  | .local _ .vmem, ⟨9, _⟩ => ⟨S1000x10000, .bf16⟩
  | .local _ .vmem, ⟨10, _⟩ => ⟨S1000x10000, .bf16⟩
  | .local _ .vmem, ⟨11, _⟩ => ⟨S10000x256, .bf16⟩
  | .local _ .vmem, ⟨12, _⟩ => ⟨S256x256, .f32⟩
  | .local _ .vmem, ⟨13, _⟩ => ⟨S1000x256, .bf16⟩
  | .local _ .vmem, ⟨14, _⟩ => ⟨S1000x256, .bf16⟩
  | .local _ .vmem, ⟨15, _⟩ => ⟨S1000x10000, .bf16⟩
  | .local _ .vmem, ⟨16, _⟩ => ⟨S1000x10000, .bf16⟩
  | .local _ .vmem, ⟨17, _⟩ => ⟨S10000x256, .bf16⟩
  | .local _ .vmem, ⟨18, _⟩ => ⟨S1000x256, .f32⟩
  | .local _ .vmem, ⟨19, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S1000x10000_S10000x256_S1000x256_1_0_0_1_n_n_wf : DotDims.WF S1000x10000 S10000x256 S1000x256 [1] [0] [0] [1] [] []
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .bf16 = 32 ∨ (Rect.block (s := S10000x256) S400x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .bf16 = 32 ∨ (Rect.block (s := S10000x256) S1000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S10000x256.size a
  hwx2_2 : ∀ i : grid2.Coords, EltTy.bits .f32 = 32 ∨ (Rect.block (s := S10000x256) S1000x256.size (cc2_transform_2 i) (hinb2_2 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S400x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S400x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S10000x256, .f32⟩
  | .hbm, ⟨6, _⟩ => ⟨S10000x256, .f32⟩
  | .hbm, ⟨7, _⟩ => ⟨S_, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000x256, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KernelRun.lean ====
/-
  The fused program's run with its result named.

  The program is a host conversion followed by three kernel regions. Every weakly fair execution terminates, and
  in the final memory every buffer that outlives the regions holds what the fold of the four segments leaves in it:
  the contents after the host stretch, with each region's arrays replaced by what its pipeline's write-backs leave.
  The frame states this of the five argument buffers (which no segment writes); here the same launch is read at the
  result buffer too.
-/
import proofs.«115100_g61392262529321_cont_sun_c4_774_23_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Whole

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.LibMatProd.lean ====
/-
  Matrices over the extended reals: the product, relu, strips of rows, and associativity for real entries.

  A matrix is a function of a rank-2 index. For A (a×k) and B (k×b) the product `mm A B` has entry (i, j) equal to
  the sum over l of A (i, l) · B (l, j); `relu A` replaces every entry by its maximum with 0.

  STRIPS. Row p of a product A · B depends only on row p of A, and relu acts entry by entry. So if `a` is the strip
  of `A` that starts at row o (row p of `a` is row o + p of `A`), then `mm a B` is the strip of `mm A B` that starts
  at row o, and `relu a` the strip of `relu A`. This is what lets a computation carried out strip by strip be read
  as rows of one whole-array formula.

  ASSOCIATIVITY. (A · X) · W = A · (X · W) moves a factor across a sum and exchanges two sums. On the extended reals
  the first step fails at the infinities, so the law is stated for matrices all of whose entries are real numbers,
  and proved by carrying both sides to the reals (a finite sum of real coercions is the coercion of the real sum:
  LibRealSums.lean, which this file imports).
-/
import Idealize.ShloMosaic.Lib.ValueIdx
import Idealize.ShloMosaic.PureOps.Ideal
import proofs.«115100_g61392262529321_cont_sun_c4_774_23_alg».proof.Proof.LibRealSums

noncomputable section

open scoped BigOperators

namespace Cert.MatProd

open Idealize.ShloMosaic Idealize.ShloMosaic.ValueIdx

/-- An a×b matrix over the extended reals: a function of the rank-2 index. -/
abbrev Mat (a b : Nat) : Type := (⟨2, ![a, b]⟩ : Shape).Idx → EReal

/-- Every entry is a real number. -/
def IsReal {a b : Nat} (A : Mat a b) : Prop := ∀ i, ∃ r : ℝ, A i = (r : EReal)

/-- The matrix product: entry (i, j) is the sum over l of A (i, l) · B (l, j). -/
def mm {a k b : Nat} (A : Mat a k) (B : Mat k b) : Mat a b :=
  fun i => ∑ l : Fin k, A (ix2 (i 0) l) * B (ix2 l (i 1))

/-- Every entry replaced by its maximum with zero. -/
def relu {a b : Nat} (A : Mat a b) : Mat a b := fun i => max (A i) 0

/-- The product at the index built from coordinates p and q. -/
theorem mm_apply {a k b : Nat} (A : Mat a k) (B : Mat k b) (p : Fin a) (q : Fin b) :
    mm A B (ix2 p q) = ∑ l : Fin k, A (ix2 p l) * B (ix2 l q) := rfl

/-- `a` is the strip of `A` that starts at row `o`: row p of `a` is row o + p of `A`. -/
def StripOf {m n k : Nat} (a : Mat m k) (A : Mat n k) (o : Nat) (ho : ∀ p : Fin m, o + p.val < n) : Prop :=
  ∀ (p : Fin m) (l : Fin k), a (ix2 p l) = A (ix2 ⟨o + p.val, ho p⟩ l)

/-- The product of a strip with B is the same strip of the product. -/
theorem StripOf.mm {m n k b : Nat} {a : Mat m k} {A : Mat n k} {o : Nat} {ho : ∀ p : Fin m, o + p.val < n}
    (h : StripOf a A o ho) (B : Mat k b) : StripOf (MatProd.mm a B) (MatProd.mm A B) o ho := fun p q => by
  rw [mm_apply, mm_apply]
  exact Finset.sum_congr rfl fun l _ => by rw [h p l]

/-- The relu of a strip is the same strip of the relu. -/
theorem StripOf.relu {m n k : Nat} {a : Mat m k} {A : Mat n k} {o : Nat} {ho : ∀ p : Fin m, o + p.val < n}
    (h : StripOf a A o ho) : StripOf (MatProd.relu a) (MatProd.relu A) o ho := fun p l => by
  show max (a (ix2 p l)) 0 = max (A (ix2 ⟨o + p.val, ho p⟩ l)) 0
  rw [h p l]

/-- Associativity of the matrix product for matrices of real entries: both sides are, in the reals, the double
    sum over (p, j) of A (i, p) · X (p, j) · W (j, q). -/
theorem mm_assoc {a k l b : Nat} (A : Mat a k) (X : Mat k l) (W : Mat l b)
    (hA : IsReal A) (hX : IsReal X) (hW : IsReal W) : mm (mm A X) W = mm A (mm X W) := by
  choose fA hfA using hA
  choose fX hfX using hX
  choose fW hfW using hW
  obtain rfl : A = fun i => (fA i : EReal) := funext hfA
  obtain rfl : X = fun i => (fX i : EReal) := funext hfX
  obtain rfl : W = fun i => (fW i : EReal) := funext hfW
  funext i
  simp only [mm, ← EReal.coe_mul, Cert.RealSums.coe_finset_sum]
  refine congrArg _ ?_
  simp only [Finset.sum_mul, Finset.mul_sum]
  rw [Finset.sum_comm]
  exact Finset.sum_congr rfl fun p _ => Finset.sum_congr rfl fun j _ => mul_assoc _ _ _

end Cert.MatProd

end
-- ==== Proof.Gcn.lean ====
/-
  A three-layer graph convolution over the extended reals, in two arrangements.

  One layer is h ↦ relu (adj · (h · W)). The three-layer block applied to x is

      block x adj W0 W1 W2 = layer adj (layer adj (layer adj x W0) W1) W2.

  The fused arrangement computes the first layer as relu ((adj · x) · W0) and then, strip by strip, carries
  s = h · W_next instead of h:

      s1 = relu ((adj · x) · W0) · W1,   s2 = relu (adj · s1) · W2,   out = relu (adj · s2).

  The two differ only in the first product, (adj · x) · W0 against adj · (x · W0): associativity of the matrix
  product, which holds when x, adj and W0 have real entries. Each fused stage, computed from a strip of rows of
  `adj`, is the same strip of rows of the stage computed from the whole of `adj`.
-/
import proofs.«115100_g61392262529321_cont_sun_c4_774_23_alg».proof.Proof.LibMatProd

noncomputable section

namespace Cert.Gcn

open Idealize.ShloMosaic Idealize.ShloMosaic.ValueIdx

export Cert.MatProd (Mat IsReal mm relu mm_apply StripOf mm_assoc)

/-- One graph-convolution layer: relu (adj · (h · W)). -/
def layer {n d e : Nat} (adj : Mat n n) (h : Mat n d) (W : Mat d e) : Mat n e := relu (mm adj (mm h W))

/-- The three-layer block as the reference arranges it. -/
def block {n d : Nat} (x : Mat n d) (adj : Mat n n) (W0 W1 W2 : Mat d d) : Mat n d :=
  layer adj (layer adj (layer adj x W0) W1) W2

/-- The first fused stage: relu ((adj · x) · W0) · W1. -/
def stage1 {n d : Nat} (adj : Mat n n) (x : Mat n d) (W0 W1 : Mat d d) : Mat n d :=
  mm (relu (mm (mm adj x) W0)) W1

/-- The second fused stage: relu (adj · s) · W2. -/
def stage2 {n d : Nat} (adj : Mat n n) (s : Mat n d) (W2 : Mat d d) : Mat n d := mm (relu (mm adj s)) W2

/-- The last stage: relu (adj · s). -/
def stage3 {n d : Nat} (adj : Mat n n) (s : Mat n d) : Mat n d := relu (mm adj s)

/-- The first stage computed from a strip of `adj` is the same strip of the first stage. -/
theorem _root_.Cert.MatProd.StripOf.stage1 {m n d : Nat} {a : Mat m n} {adj : Mat n n} {o : Nat}
    {ho : ∀ p : Fin m, o + p.val < n} (h : StripOf a adj o ho) (x : Mat n d) (W0 W1 : Mat d d) :
    StripOf (Cert.MatProd.mm (Cert.MatProd.relu (Cert.MatProd.mm (Cert.MatProd.mm a x) W0)) W1)
      (Gcn.stage1 adj x W0 W1) o ho :=
  (((h.mm x).mm W0).relu).mm W1

/-- The second stage computed from a strip of `adj` is the same strip of the second stage. -/
theorem _root_.Cert.MatProd.StripOf.stage2 {m n d : Nat} {a : Mat m n} {adj : Mat n n} {o : Nat}
    {ho : ∀ p : Fin m, o + p.val < n} (h : StripOf a adj o ho) (s : Mat n d) (W2 : Mat d d) :
    StripOf (Cert.MatProd.mm (Cert.MatProd.relu (Cert.MatProd.mm a s)) W2) (Gcn.stage2 adj s W2) o ho :=
  ((h.mm s).relu).mm W2

/-- The last stage computed from a strip of `adj` is the same strip of the last stage. -/
theorem _root_.Cert.MatProd.StripOf.stage3 {m n d : Nat} {a : Mat m n} {adj : Mat n n} {o : Nat}
    {ho : ∀ p : Fin m, o + p.val < n} (h : StripOf a adj o ho) (s : Mat n d) :
    StripOf (Cert.MatProd.relu (Cert.MatProd.mm a s)) (Gcn.stage3 adj s) o ho :=
  (h.mm s).relu

/-- The fused arrangement computes the block, for real inputs to its first layer. -/
theorem stages_eq_block {n d : Nat} (x : Mat n d) (adj : Mat n n) (W0 W1 W2 : Mat d d)
    (hx : IsReal x) (hadj : IsReal adj) (hW0 : IsReal W0) :
    stage3 adj (stage2 adj (stage1 adj x W0 W1) W2) = block x adj W0 W1 W2 := by
  unfold stage3 stage2 stage1 block layer
  rw [mm_assoc adj x W0 hadj hx hW0]

end Cert.Gcn

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Payloads.lean ====
/-
  What each of the three kernel bodies stores, at the ideal values, as matrix products and relus.

  At the ideal values a change of float format is the identity, a `tpu.matmul` of an M×K by a K×N operand into
  the zero accumulator is the matrix product, and the maximum with the splat of the zero word is relu. So

    * the first body stores relu ((a · x) · W0) · W1 of its adjacency strip a (and stores a itself, narrowed in
      format only, as its second result);
    * the second body stores relu (a · s) · W2;
    * the third body stores relu (a · s).
-/
import proofs.«115100_g61392262529321_cont_sun_c4_774_23_alg».proof.Proof.Gen.KernelIdeal.Skeleton
import proofs.«115100_g61392262529321_cont_sun_c4_774_23_alg».proof.Proof.Gcn
import proofs.«115100_g61392262529321_cont_sun_c4_774_23_alg».proof.Proof.LibPlainDot
import Idealize.ShloMosaic.Lib.Pipeline.Value
import Idealize.ShloMosaic.PureOps.Ideal.Laws

noncomputable section

namespace Cert.KernelIdeal.Payloads

open Cert.KernelIdeal Cert.KernelIdeal.Gen Cert.Gcn Idealize.ShloMosaic Idealize.ShloMosaic.ValueIdx

/-- A plain product into the zero accumulator is the matrix product. -/
theorem matmul_zero_eq_mm {M K N : Nat} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = mm l r := by
  funext j
  obtain ⟨p, q, rfl⟩ : ∃ (p : Fin M) (q : Fin N), j = ix2 p q := ⟨j 0, j 1, eq_ix2 j⟩
  exact PlainDot.matmul_zero_apply prec l r p q

/-- The maximum with the splat of the zero word is relu. -/
theorem max_zero_eq_relu {a b : Nat} (v : FVec Ideal ⟨2, ![a, b]⟩ .f32) :
    maximumf v (broadcast ⟨2, ![a, b]⟩ (Scalar.ofBits (F := Ideal) .f32 0x00000000#32)) = relu v := by
  funext i
  show max (v i) (Ideal.ofBits .f32 0x00000000#32) = max (v i) 0
  rw [Ideal.ofBits_zero_f32]

/-- The printed dimension numbers are those of a plain product. -/
theorem dot_strip1 : dot_S400x10000_S10000x256_S400x256_1_0_0_1_n_n = DotDims.plain 400 10000 256 := rfl
theorem dot_feat1 : dot_S400x256_S256x256_S400x256_1_0_0_1_n_n = DotDims.plain 400 256 256 := rfl
theorem dot_strip2 : dot_S1000x10000_S10000x256_S1000x256_1_0_0_1_n_n = DotDims.plain 1000 10000 256 := rfl
theorem dot_feat2 : dot_S1000x256_S256x256_S1000x256_1_0_0_1_n_n = DotDims.plain 1000 256 256 := rfl

/-- The first body's second store: the adjacency strip itself. -/
theorem strip_copy (a : Vec Ideal S400x10000 .f32) : k0_pay1 (F := Ideal) a = a := rfl

/-- The first body's first store: relu ((a · x) · W0) · W1. -/
theorem layer1 (a : Vec Ideal S400x10000 .f32) (x : Vec Ideal S10000x256 .bf16) (W0 W1 : Vec Ideal S256x256 .f32) :
    k0_pay2 (F := Ideal) a x W0 W1 = mm (relu (mm (mm a x) W0)) W1 := by
  unfold k0_pay2
  simp only [strip_copy, shapeCast_self, matmul, dot_strip1, dot_feat1]
  rw [matmul_zero_eq_mm, matmul_zero_eq_mm, max_zero_eq_relu, matmul_zero_eq_mm]
  rfl

/-- The second body's store: relu (a · s) · W2. -/
theorem layer2 (a : Vec Ideal S1000x10000 .bf16) (s : Vec Ideal S10000x256 .bf16) (W2 : Vec Ideal S256x256 .f32) :
    k1_pay1 (F := Ideal) a s W2 = mm (relu (mm a s)) W2 := by
  unfold k1_pay1
  simp only [shapeCast_self, matmul, dot_strip2, dot_feat2]
  rw [matmul_zero_eq_mm, max_zero_eq_relu, matmul_zero_eq_mm]
  rfl

/-- The third body's store: relu (a · s). -/
theorem layer3 (a : Vec Ideal S1000x10000 .bf16) (s : Vec Ideal S10000x256 .bf16) :
    k2_pay1 (F := Ideal) a s = relu (mm a s) := by
  unfold k2_pay1
  simp only [shapeCast_self, matmul, dot_strip2]
  rw [matmul_zero_eq_mm, max_zero_eq_relu]

end Cert.KernelIdeal.Payloads

end
-- ==== Proof.Region0.lean ====
/-
  The first kernel's two result arrays, of the arrays the region finds: relu ((adj · x) · W0) · W1, and the
  adjacency array itself (narrowed in format only).

  The grid has twenty-five points. Point t reads rows 400·t … 400·t + 399 of the adjacency array and the whole of x, W0
  and W1, and writes rows 400·t … 400·t + 399 of each result. The twenty-five strips tile each result array. The strip of
  the first result is the same strip of relu ((adj · x) · W0) · W1 of the whole arrays — row p of a product depends only
  on row p of its left factor, and relu acts entry by entry —, and the strip of the second is the strip of `adj` the
  point read.
-/
import proofs.«115100_g61392262529321_cont_sun_c4_774_23_alg».proof.Proof.Gen.KernelIdeal.Frame
import proofs.«115100_g61392262529321_cont_sun_c4_774_23_alg».proof.Proof.Payloads
import Idealize.ShloMosaic.Lib.Pipeline.Value

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the adjacency window and the two result windows sit at block row t, the
    other three windows at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point t writes back to the first result is strip t of relu ((adj · x) · W0) · W1. -/
theorem flushed_eq (c : Dev nD) (t : Fin cfg0.N) :
    (dat0 V c).flushed 4 t
      = ((cfg0.win 4).blk t).view.read (Elt Ideal)
          (stage1 (n := 10000) (d := 256) (V c main_arg1) (V c main_v0) (V c main_arg2) (V c main_arg3)) := by
  show (cfg0.win 4).cut (grid0.coords t) ((dat0 V c).after 4 t) = _
  rw [after0_4]
  unfold out0_4
  rw [View.canon_unit_zero origin]
  simp only [View.ld_unit_zero (S := S400x10000) origin, View.ld_unit_zero (S := S10000x256) origin,
    View.ld_unit_zero (S := S256x256) origin]
  rw [Payloads.layer1]
  obtain ⟨e0, e1, e2, e3, e4, e5, e6, e7, e8, e9, e10, e11⟩ := idx_facts t
  funext j
  have hN : t.val < 25 := lt_of_lt_of_eq t.isLt N_0
  show mm (relu (mm (mm (iblk0 V c 0 t) (iblk0 V c 1 t)) (iblk0 V c 2 t))) (iblk0 V c 3 t) j
      = stage1 (n := 10000) (d := 256) (V c main_arg1) (V c main_v0) (V c main_arg2) (V c main_arg3)
          (((cfg0.win 4).blk t).view.emb j)
  have hstrip : StripOf (m := 400) (n := 10000) (k := 10000) (iblk0 V c 0 t) (V c main_arg1) (400 * t.val)
      (fun p => by have := p.isLt; omega) := by
    intro p l
    show V c main_arg1 (((cfg0.win 0).blk t).view.emb (ix2 p l)) = V c main_arg1 (ix2 _ l)
    refine congrArg _ (funext fun a => Fin.ext ?_)
    match a with
    | ⟨0, _⟩ => show win0_0.index t (0 : Fin 2) * 400 + 1 * p.val = 400 * t.val + p.val; omega
    | ⟨1, _⟩ => show win0_0.index t (1 : Fin 2) * 10000 + 1 * l.val = l.val; omega
  have hwhole1 : (iblk0 V c 1 t : Mat 10000 256) = V c main_v0 := by
    funext y
    show V c main_v0 (((cfg0.win 1).blk t).view.emb y) = V c main_v0 y
    refine congrArg _ (funext fun a => Fin.ext ?_)
    match a with
    | ⟨0, _⟩ => show win0_1.index t (0 : Fin 2) * 10000 + 1 * (y 0).val = (y 0).val; omega
    | ⟨1, _⟩ => show win0_1.index t (1 : Fin 2) * 256 + 1 * (y 1).val = (y 1).val; omega
  have hwhole2 : (iblk0 V c 2 t : Mat 256 256) = V c main_arg2 := by
    funext y
    show V c main_arg2 (((cfg0.win 2).blk t).view.emb y) = V c main_arg2 y
    refine congrArg _ (funext fun a => Fin.ext ?_)
    match a with
    | ⟨0, _⟩ => show win0_2.index t (0 : Fin 2) * 256 + 1 * (y 0).val = (y 0).val; omega
    | ⟨1, _⟩ => show win0_2.index t (1 : Fin 2) * 256 + 1 * (y 1).val = (y 1).val; omega
  have hwhole3 : (iblk0 V c 3 t : Mat 256 256) = V c main_arg3 := by
    funext y
    show V c main_arg3 (((cfg0.win 3).blk t).view.emb y) = V c main_arg3 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  rw [hwhole1, hwhole2, hwhole3]
  obtain ⟨p, q, rfl⟩ : ∃ (p : Fin 400) (q : Fin 256), j = ix2 p q := ⟨j 0, j 1, eq_ix2 j⟩
  refine (hstrip.stage1 (V c main_v0) (V c main_arg2) (V c main_arg3) p q).trans (congrArg _ (funext fun a => Fin.ext ?_))
  match a with
  | ⟨0, _⟩ => show 400 * t.val + p.val = win0_4.index t (0 : Fin 2) * 400 + 1 * p.val; omega
  | ⟨1, _⟩ => show q.val = win0_4.index t (1 : Fin 2) * 256 + 1 * q.val; omega

/-- What point t writes back to the second result is strip t of the adjacency array. -/
theorem flushed_eq_adj (c : Dev nD) (t : Fin cfg0.N) :
    (dat0 V c).flushed 5 t = ((cfg0.win 5).blk t).view.read (Elt Ideal) (V c main_arg1 : Mat 10000 10000) := by
  show (cfg0.win 5).cut (grid0.coords t) ((dat0 V c).after 5 t) = _
  rw [after0_5]
  unfold out0_5
  rw [View.canon_unit_zero origin]
  simp only [View.ld_unit_zero (S := S400x10000) origin]
  rw [Payloads.strip_copy]
  obtain ⟨e0, e1, e2, e3, e4, e5, e6, e7, e8, e9, e10, e11⟩ := idx_facts t
  funext j
  show V c main_arg1 (((cfg0.win 0).blk t).view.emb j) = V c main_arg1 (((cfg0.win 5).blk t).view.emb j)
  refine congrArg _ (funext fun a => Fin.ext ?_)
  match a with
  | ⟨0, _⟩ => show win0_0.index t (0 : Fin 2) * 400 + 1 * (j 0).val = win0_5.index t (0 : Fin 2) * 400 + 1 * (j 0).val; omega
  | ⟨1, _⟩ => show win0_0.index t (1 : Fin 2) * 10000 + 1 * (j 1).val = win0_5.index t (1 : Fin 2) * 10000 + 1 * (j 1).val; omega

/-- An index of the array is in point t's strip iff each coordinate is in the strip's range. -/
theorem mem_blk (t : Fin cfg0.N) (i : S10000x256.Idx) :
    i ∈ ((cfg0.win 4).blk t).view.set ↔ ∀ a : Fin 2, win0_4.index t a * S400x256.size a ≤ (i a).val
      ∧ (i a).val < win0_4.index t a * S400x256.size a + S400x256.size a := by
  show i ∈ ((View.whole main_v1_0).slice (win0_4.rect t)).set ↔ _
  rw [View.set_slice_whole, Rect.mem_set_unit]
  exact Iff.rfl

/-- The 25 strips tile the array: row r lies in strip r / 400. -/
theorem cover (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  have hlt : (i 0).val / 400 < cfg0.N := lt_of_lt_of_eq (by omega : (i 0).val / 400 < 25) N_0.symm
  have ef := idx_facts ⟨(i 0).val / 400, hlt⟩
  have eR : win0_4.index ⟨(i 0).val / 400, hlt⟩ (0 : Fin 2) = (i 0).val / 400 := ef.2.2.2.2.2.2.2.2.1
  have eC : win0_4.index ⟨(i 0).val / 400, hlt⟩ (1 : Fin 2) = 0 := ef.2.2.2.2.2.2.2.2.2.1
  refine ⟨⟨(i 0).val / 400, hlt⟩, flush0_4 _, ?_⟩
  rw [mem_blk]
  intro a
  match a with
  | ⟨0, _⟩ =>
    show win0_4.index ⟨(i 0).val / 400, hlt⟩ (0 : Fin 2) * 400 ≤ (i 0).val
      ∧ (i 0).val < win0_4.index ⟨(i 0).val / 400, hlt⟩ (0 : Fin 2) * 400 + 400
    omega
  | ⟨1, _⟩ =>
    show win0_4.index ⟨(i 0).val / 400, hlt⟩ (1 : Fin 2) * 256 ≤ (i 1).val
      ∧ (i 1).val < win0_4.index ⟨(i 0).val / 400, hlt⟩ (1 : Fin 2) * 256 + 256
    omega

/-- An index of the array is in point t's strip iff each coordinate is in the strip's range. -/
theorem mem_blk_adj (t : Fin cfg0.N) (i : S10000x10000.Idx) :
    i ∈ ((cfg0.win 5).blk t).view.set ↔ ∀ a : Fin 2, win0_5.index t a * S400x10000.size a ≤ (i a).val
      ∧ (i a).val < win0_5.index t a * S400x10000.size a + S400x10000.size a := by
  show i ∈ ((View.whole main_v1_1).slice (win0_5.rect t)).set ↔ _
  rw [View.set_slice_whole, Rect.mem_set_unit]
  exact Iff.rfl

/-- The 25 strips tile the array: row r lies in strip r / 400. -/
theorem cover_adj (i : S10000x10000.Idx) :
    ∃ t : Fin cfg0.N, (cfg0.win 5).flush t = true ∧ i ∈ ((cfg0.win 5).blk t).view.set := by
  have hi0 : (i 0).val < 10000 := (i 0).isLt
  have hi1 : (i 1).val < 10000 := (i 1).isLt
  have hlt : (i 0).val / 400 < cfg0.N := lt_of_lt_of_eq (by omega : (i 0).val / 400 < 25) N_0.symm
  have ef := idx_facts ⟨(i 0).val / 400, hlt⟩
  have eR : win0_5.index ⟨(i 0).val / 400, hlt⟩ (0 : Fin 2) = (i 0).val / 400 := ef.2.2.2.2.2.2.2.2.2.2.1
  have eC : win0_5.index ⟨(i 0).val / 400, hlt⟩ (1 : Fin 2) = 0 := ef.2.2.2.2.2.2.2.2.2.2.2
  refine ⟨⟨(i 0).val / 400, hlt⟩, flush0_5 _, ?_⟩
  rw [mem_blk_adj]
  intro a
  match a with
  | ⟨0, _⟩ =>
    show win0_5.index ⟨(i 0).val / 400, hlt⟩ (0 : Fin 2) * 400 ≤ (i 0).val
      ∧ (i 0).val < win0_5.index ⟨(i 0).val / 400, hlt⟩ (0 : Fin 2) * 400 + 400
    omega
  | ⟨1, _⟩ =>
    show win0_5.index ⟨(i 0).val / 400, hlt⟩ (1 : Fin 2) * 10000 ≤ (i 1).val
      ∧ (i 1).val < win0_5.index ⟨(i 0).val / 400, hlt⟩ (1 : Fin 2) * 10000 + 10000
    omega

/-- The first result array after the region: relu ((adj · x) · W0) · W1 of the arrays the region finds. -/
theorem final (c : Dev nD) :
    (dat0 V c).arrAt 4 cfg0.N
      = stage1 (n := 10000) (d := 256) (V c main_arg1) (V c main_v0) (V c main_arg2) (V c main_arg3) :=
  (dat0 V c).arrAt_eq_of_cover 4 _ (fun t _ => flushed_eq V c t) cover

/-- The second result array after the region: the adjacency array the region finds. -/
theorem final_adj (c : Dev nD) : (dat0 V c).arrAt 5 cfg0.N = (V c main_arg1 : Mat 10000 10000) :=
  (dat0 V c).arrAt_eq_of_cover 5 _ (fun t _ => flushed_eq_adj V c t) cover_adj

end Cert.KernelIdeal.Region0

end
-- ==== Proof.Region1.lean ====
/-
  The second kernel's result array: relu (adj · s) · W2 of the arrays the region finds.

  The grid has ten points. Point t reads rows 1000·t … 1000·t + 999 of the adjacency array and the whole of s and of
  W2, and writes rows 1000·t … 1000·t + 999 of the result. The ten strips tile the result array, and the strip a point
  writes is the same strip of relu (adj · s) · W2 of the whole arrays: row p of a product depends only on row p of its
  left factor, and relu acts entry by entry.
-/
import proofs.«115100_g61392262529321_cont_sun_c4_774_23_alg».proof.Proof.Gen.KernelIdeal.Frame
import proofs.«115100_g61392262529321_cont_sun_c4_774_23_alg».proof.Proof.Payloads
import Idealize.ShloMosaic.Lib.Pipeline.Value

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the adjacency and result windows sit at block row t, the other two
    windows at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is strip t of relu (adj · s) · W2. -/
theorem flushed_eq (c : Dev nD) (t : Fin cfg1.N) :
    (dat1 V c).flushed 3 t
      = ((cfg1.win 3).blk t).view.read (Elt Ideal)
          (stage2 (n := 10000) (d := 256) (V c main_v1_1) (V c main_v1_0) (V c main_arg4)) := by
  show (cfg1.win 3).cut (grid1.coords t) ((dat1 V c).after 3 t) = _
  rw [after1_3]
  unfold out1_3
  rw [View.canon_unit_zero origin]
  simp only [View.ld_unit_zero (S := S1000x10000) origin, View.ld_unit_zero (S := S10000x256) origin,
    View.ld_unit_zero (S := S256x256) origin]
  rw [Payloads.layer2]
  obtain ⟨e0, e1, e2, e3, e4, e5, e6, e7⟩ := idx_facts t
  funext j
  have hN : t.val < 10 := lt_of_lt_of_eq t.isLt N_1
  show mm (relu (mm (iblk1 V c 0 t) (iblk1 V c 1 t))) (iblk1 V c 2 t) j
      = stage2 (n := 10000) (d := 256) (V c main_v1_1) (V c main_v1_0) (V c main_arg4) (((cfg1.win 3).blk t).view.emb j)
  have hstrip : StripOf (m := 1000) (n := 10000) (k := 10000) (iblk1 V c 0 t) (V c main_v1_1) (1000 * t.val)
      (fun p => by have := p.isLt; omega) := by
    intro p l
    show V c main_v1_1 (((cfg1.win 0).blk t).view.emb (ix2 p l)) = V c main_v1_1 (ix2 _ l)
    refine congrArg _ (funext fun a => Fin.ext ?_)
    match a with
    | ⟨0, _⟩ => show win1_0.index t (0 : Fin 2) * 1000 + 1 * p.val = 1000 * t.val + p.val; omega
    | ⟨1, _⟩ => show win1_0.index t (1 : Fin 2) * 10000 + 1 * l.val = l.val; omega
  have hwhole1 : (iblk1 V c 1 t : Mat 10000 256) = V c main_v1_0 := by
    funext y
    show V c main_v1_0 (((cfg1.win 1).blk t).view.emb y) = V c main_v1_0 y
    refine congrArg _ (funext fun a => Fin.ext ?_)
    match a with
    | ⟨0, _⟩ => show win1_1.index t (0 : Fin 2) * 10000 + 1 * (y 0).val = (y 0).val; omega
    | ⟨1, _⟩ => show win1_1.index t (1 : Fin 2) * 256 + 1 * (y 1).val = (y 1).val; omega
  have hwhole2 : (iblk1 V c 2 t : Mat 256 256) = V c main_arg4 := by
    funext y
    show V c main_arg4 (((cfg1.win 2).blk t).view.emb y) = V c main_arg4 y
    refine congrArg _ (funext fun a => Fin.ext ?_)
    match a with
    | ⟨0, _⟩ => show win1_2.index t (0 : Fin 2) * 256 + 1 * (y 0).val = (y 0).val; omega
    | ⟨1, _⟩ => show win1_2.index t (1 : Fin 2) * 256 + 1 * (y 1).val = (y 1).val; omega
  rw [hwhole1, hwhole2]
  obtain ⟨p, q, rfl⟩ : ∃ (p : Fin 1000) (q : Fin 256), j = ix2 p q := ⟨j 0, j 1, eq_ix2 j⟩
  refine (hstrip.stage2 (V c main_v1_0) (V c main_arg4) p q).trans (congrArg _ (funext fun a => Fin.ext ?_))
  match a with
  | ⟨0, _⟩ => show 1000 * t.val + p.val = win1_3.index t (0 : Fin 2) * 1000 + 1 * p.val; omega
  | ⟨1, _⟩ => show q.val = win1_3.index t (1 : Fin 2) * 256 + 1 * q.val; omega

/-- An index of the array is in point t's strip iff each coordinate is in the strip's range. -/
theorem mem_blk (t : Fin cfg1.N) (i : S10000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v2).slice (win1_3.rect t)).set ↔ _
  rw [View.set_slice_whole, Rect.mem_set_unit]
  exact Iff.rfl

/-- The 10 strips tile the array: row r lies in strip r / 1000. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hlt : (i 0).val / 1000 < cfg1.N := lt_of_lt_of_eq (by omega : (i 0).val / 1000 < 10) N_1.symm
  have ef := idx_facts ⟨(i 0).val / 1000, hlt⟩
  have eR : win1_3.index ⟨(i 0).val / 1000, hlt⟩ (0 : Fin 2) = (i 0).val / 1000 := ef.2.2.2.2.2.2.1
  have eC : win1_3.index ⟨(i 0).val / 1000, hlt⟩ (1 : Fin 2) = 0 := ef.2.2.2.2.2.2.2
  refine ⟨⟨(i 0).val / 1000, hlt⟩, flush1_3 _, ?_⟩
  rw [mem_blk]
  intro a
  match a with
  | ⟨0, _⟩ =>
    show win1_3.index ⟨(i 0).val / 1000, hlt⟩ (0 : Fin 2) * 1000 ≤ (i 0).val
      ∧ (i 0).val < win1_3.index ⟨(i 0).val / 1000, hlt⟩ (0 : Fin 2) * 1000 + 1000
    omega
  | ⟨1, _⟩ =>
    show win1_3.index ⟨(i 0).val / 1000, hlt⟩ (1 : Fin 2) * 256 ≤ (i 1).val
      ∧ (i 1).val < win1_3.index ⟨(i 0).val / 1000, hlt⟩ (1 : Fin 2) * 256 + 256
    omega

/-- The result array after the region: relu (adj · s) · W2 of the arrays the region finds. -/
theorem final (c : Dev nD) :
    (dat1 V c).arrAt 3 cfg1.N = stage2 (n := 10000) (d := 256) (V c main_v1_1) (V c main_v1_0) (V c main_arg4) :=
  (dat1 V c).arrAt_eq_of_cover 3 _ (fun t _ => flushed_eq V c t) cover

end Cert.KernelIdeal.Region1

end
-- ==== Proof.Region2.lean ====
/-
  The third kernel's result array: relu (adj · s) of the arrays the region finds.

  The grid has ten points. Point t reads rows 1000·t … 1000·t + 999 of the adjacency array and the whole of s, and
  writes rows 1000·t … 1000·t + 999 of the result. Those ten strips tile the result array, and the strip a point
  writes is the same strip of relu (adj · s) of the whole arrays, because row p of a product depends only on row p of
  its left factor.
-/
import proofs.«115100_g61392262529321_cont_sun_c4_774_23_alg».proof.Proof.Gen.KernelIdeal.Frame
import proofs.«115100_g61392262529321_cont_sun_c4_774_23_alg».proof.Proof.Payloads
import Idealize.ShloMosaic.Lib.Pipeline.Value

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the adjacency and result windows sit at block row t, the feature window
    at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is strip t of relu (adj · s). -/
theorem flushed_eq (c : Dev nD) (t : Fin cfg2.N) :
    (dat2 V c).flushed 2 t
      = ((cfg2.win 2).blk t).view.read (Elt Ideal) (stage3 (n := 10000) (d := 256) (V c main_v1_1) (V c main_v2)) := by
  show (cfg2.win 2).cut (grid2.coords t) ((dat2 V c).after 2 t) = _
  rw [after2_2]
  unfold out2_2
  rw [View.canon_unit_zero origin]
  simp only [View.ld_unit_zero (S := S1000x10000) origin, View.ld_unit_zero (S := S10000x256) origin]
  rw [Payloads.layer3]
  obtain ⟨e0, e1, e2, e3, e4, e5⟩ := idx_facts t
  funext j
  have hN : t.val < 10 := lt_of_lt_of_eq t.isLt N_2
  show relu (mm (iblk2 V c 0 t) (iblk2 V c 1 t)) j
      = stage3 (n := 10000) (d := 256) (V c main_v1_1) (V c main_v2) (((cfg2.win 2).blk t).view.emb j)
  have hstrip : StripOf (m := 1000) (n := 10000) (k := 10000) (iblk2 V c 0 t) (V c main_v1_1) (1000 * t.val)
      (fun p => by have := p.isLt; omega) := by
    intro p l
    show V c main_v1_1 (((cfg2.win 0).blk t).view.emb (ix2 p l)) = V c main_v1_1 (ix2 _ l)
    refine congrArg _ (funext fun a => Fin.ext ?_)
    match a with
    | ⟨0, _⟩ => show win2_0.index t (0 : Fin 2) * 1000 + 1 * p.val = 1000 * t.val + p.val; omega
    | ⟨1, _⟩ => show win2_0.index t (1 : Fin 2) * 10000 + 1 * l.val = l.val; omega
  have hfeat : (iblk2 V c 1 t : Mat 10000 256) = V c main_v2 := by
    funext y
    show V c main_v2 (((cfg2.win 1).blk t).view.emb y) = V c main_v2 y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 256 + 1 * (y 1).val = (y 1).val; omega
  rw [hfeat]
  obtain ⟨p, q, rfl⟩ : ∃ (p : Fin 1000) (q : Fin 256), j = ix2 p q := ⟨j 0, j 1, eq_ix2 j⟩
  refine (hstrip.stage3 (V c main_v2) p q).trans (congrArg _ (funext fun a => Fin.ext ?_))
  match a with
  | ⟨0, _⟩ => show 1000 * t.val + p.val = win2_2.index t (0 : Fin 2) * 1000 + 1 * p.val; omega
  | ⟨1, _⟩ => show q.val = win2_2.index t (1 : Fin 2) * 256 + 1 * q.val; omega

/-- An index of the result array is in point t's strip iff each coordinate is in the strip's range. -/
theorem mem_blk (t : Fin cfg2.N) (i : S10000x256.Idx) :
    i ∈ ((cfg2.win 2).blk t).view.set ↔ ∀ a : Fin 2, win2_2.index t a * S1000x256.size a ≤ (i a).val
      ∧ (i a).val < win2_2.index t a * S1000x256.size a + S1000x256.size a := by
  show i ∈ ((View.whole main_v3).slice (win2_2.rect t)).set ↔ _
  rw [View.set_slice_whole, Rect.mem_set_unit]
  exact Iff.rfl

/-- The ten strips tile the result array: row r lies in strip r / 1000. -/
theorem cover (i : S10000x256.Idx) :
    ∃ t : Fin cfg2.N, (cfg2.win 2).flush t = true ∧ i ∈ ((cfg2.win 2).blk t).view.set := by
  have hi0 : (i 0).val < 10000 := (i 0).isLt
  have hi1 : (i 1).val < 256 := (i 1).isLt
  have hlt : (i 0).val / 1000 < cfg2.N := lt_of_lt_of_eq (by omega : (i 0).val / 1000 < 10) N_2.symm
  obtain ⟨-, -, -, -, e4, e5⟩ := idx_facts ⟨(i 0).val / 1000, hlt⟩
  have e4' : win2_2.index ⟨(i 0).val / 1000, hlt⟩ (0 : Fin 2) = (i 0).val / 1000 := e4
  refine ⟨⟨(i 0).val / 1000, hlt⟩, flush2_2 _, ?_⟩
  rw [mem_blk]
  intro a
  match a with
  | ⟨0, _⟩ =>
    show win2_2.index ⟨(i 0).val / 1000, hlt⟩ (0 : Fin 2) * 1000 ≤ (i 0).val
      ∧ (i 0).val < win2_2.index ⟨(i 0).val / 1000, hlt⟩ (0 : Fin 2) * 1000 + 1000
    omega
  | ⟨1, _⟩ =>
    show win2_2.index ⟨(i 0).val / 1000, hlt⟩ (1 : Fin 2) * 256 ≤ (i 1).val
      ∧ (i 1).val < win2_2.index ⟨(i 0).val / 1000, hlt⟩ (1 : Fin 2) * 256 + 256
    omega

/-- The result array after the region: relu (adj · s) of the arrays the region finds. -/
theorem final (c : Dev nD) :
    (dat2 V c).arrAt 2 cfg2.N = stage3 (n := 10000) (d := 256) (V c main_v1_1) (V c main_v2) :=
  (dat2 V c).arrAt_eq_of_cover 2 _ (fun t _ => flushed_eq V c t) cover

end Cert.KernelIdeal.Region2

end
-- ==== Proof.Fold.lean ====
/-
  The result buffer at the last boundary, as a function of the launch arrays.

  The host stretch converts x in format only, which at the ideal values changes nothing, and writes no other
  buffer. Region 0 then leaves s1 = relu ((adj · x) · W0) · W1 and a copy of adj; region 1 reads that copy and s1 and
  leaves s2 = relu (adj · s1) · W2; region 2 reads the copy and s2 and leaves relu (adj · s2) in the result buffer.
  Between regions a buffer that a region does not own keeps its contents, and an input window's array is left as
  the region found it.
-/
import proofs.«115100_g61392262529321_cont_sun_c4_774_23_alg».proof.Proof.Region0
import proofs.«115100_g61392262529321_cont_sun_c4_774_23_alg».proof.Proof.Region1
import proofs.«115100_g61392262529321_cont_sun_c4_774_23_alg».proof.Proof.Region2
import Idealize.ShloMosaic.Lib.StableHlo.Run

set_option maxRecDepth 16384

noncomputable section

namespace Cert.KernelIdeal.Fold

open Cert.KernelIdeal Cert.KernelIdeal.Gen Cert.Gcn
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-- Region 0 finds x, converted in format only, in its feature window's array. -/
theorem entry_x (c : Dev nD) : (V1 m ρ c main_v0 : Mat 10000 256) = m ((c : Thread nD τ).loc main_arg0) := by
  show StableHlo.after hostOps0 (W0 m ρ c) (Proc.devRef .tc main_v0) = _
  dsimp only [hostOps0]
  after_results
  rfl

/-- The host stretch writes none of the argument buffers. -/
theorem entry_adj (c : Dev nD) : (V1 m ρ c main_arg1 : Mat 10000 10000) = m ((c : Thread nD τ).loc main_arg1) := by
  show StableHlo.after hostOps0 (W0 m ρ c) (Proc.devRef .tc main_arg1) = _
  dsimp only [hostOps0]
  after_results
theorem entry_W0 (c : Dev nD) : (V1 m ρ c main_arg2 : Mat 256 256) = m ((c : Thread nD τ).loc main_arg2) := by
  show StableHlo.after hostOps0 (W0 m ρ c) (Proc.devRef .tc main_arg2) = _
  dsimp only [hostOps0]
  after_results
theorem entry_W1 (c : Dev nD) : (V1 m ρ c main_arg3 : Mat 256 256) = m ((c : Thread nD τ).loc main_arg3) := by
  show StableHlo.after hostOps0 (W0 m ρ c) (Proc.devRef .tc main_arg3) = _
  dsimp only [hostOps0]
  after_results
theorem entry_W2 (c : Dev nD) : (V1 m ρ c main_arg4 : Mat 256 256) = m ((c : Thread nD τ).loc main_arg4) := by
  show StableHlo.after hostOps0 (W0 m ρ c) (Proc.devRef .tc main_arg4) = _
  dsimp only [hostOps0]
  after_results

/-- The result buffer at the last boundary: the three fused stages of the launch arrays. -/
theorem result (c : Dev nD) :
    (W4 m ρ c (Proc.devRef .tc main_v3) : Mat 10000 256)
      = stage3 (m ((c : Thread nD τ).loc main_arg1))
          (stage2 (m ((c : Thread nD τ).loc main_arg1))
            (stage1 (m ((c : Thread nD τ).loc main_arg1)) (m ((c : Thread nD τ).loc main_arg0))
              (m ((c : Thread nD τ).loc main_arg2)) (m ((c : Thread nD τ).loc main_arg3)))
            (m ((c : Thread nD τ).loc main_arg4))) := by
  have s1 : (V2 m ρ c main_v1_0 : Mat 10000 256)
      = stage1 (m ((c : Thread nD τ).loc main_arg1)) (m ((c : Thread nD τ).loc main_arg0))
          (m ((c : Thread nD τ).loc main_arg2)) (m ((c : Thread nD τ).loc main_arg3)) :=
    (W2_arr m ρ c 4).trans ((Region0.final (V1 m ρ) c).trans (by
      rw [entry_adj m ρ c, entry_x m ρ c, entry_W0 m ρ c, entry_W1 m ρ c]))
  have adj2 : (V2 m ρ c main_v1_1 : Mat 10000 10000) = m ((c : Thread nD τ).loc main_arg1) :=
    (W2_arr m ρ c 5).trans ((Region0.final_adj (V1 m ρ) c).trans (entry_adj m ρ c))
  have w2 : (V2 m ρ c main_arg4 : Mat 256 256) = m ((c : Thread nD τ).loc main_arg4) :=
    (W2_of_ne m ρ c main_arg4 (by decide)).trans (entry_W2 m ρ c)
  have s2 : (V3 m ρ c main_v2 : Mat 10000 256)
      = stage2 (m ((c : Thread nD τ).loc main_arg1))
          (stage1 (m ((c : Thread nD τ).loc main_arg1)) (m ((c : Thread nD τ).loc main_arg0))
            (m ((c : Thread nD τ).loc main_arg2)) (m ((c : Thread nD τ).loc main_arg3)))
          (m ((c : Thread nD τ).loc main_arg4)) :=
    (W3_arr m ρ c 3).trans ((Region1.final (V2 m ρ) c).trans (by rw [adj2, s1, w2]))
  have adj3 : (V3 m ρ c main_v1_1 : Mat 10000 10000) = m ((c : Thread nD τ).loc main_arg1) :=
    ((W3_arr m ρ c 0).trans (((dat1 (V2 m ρ) c).arrAt_in 0 rfl _).trans (A_eq1 (V2 m ρ) c 0))).trans adj2
  exact (W4_arr m ρ c 2).trans ((Region2.final (V3 m ρ) c).trans (by rw [adj3, s2]))

end Cert.KernelIdeal.Fold

end
-- ==== Proof.Finite.lean ====
/-
  The precondition says that every entry of every input is a real number.

  The printed predicate is the conjunction, over the five inputs, of "every entry v satisfies |v| < +∞", each taken
  by an and-reduction from 1. The predicate being 1 makes each conjunct 1, each and-reduction being 1 makes every
  compared entry 1, and an extended real whose absolute value max v (−v) lies strictly below +∞ is neither infinity:
  it is a real number.
-/
import proofs.«115100_g61392262529321_cont_sun_c4_774_23_alg».proof.Pre_finite_inputs
import proofs.«115100_g61392262529321_cont_sun_c4_774_23_alg».proof.Proof.Gcn
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Gcn Idealize.ShloMosaic

variable [Facts]
open Facts

/-- The scalar shape has one index. -/
instance : Subsingleton S_.Idx := ⟨fun a b => funext fun d => d.elim0⟩

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One conjunct of the predicate: if the and-reduction of the entrywise test |v| < +∞ is 1, every entry of v is a
    real number. -/
theorem isReal_of_all {a b : Nat} (v : Mat a b)
    (hb : S_.BroadcastsInDim ⟨2, ![a, b]⟩ (![] : Fin 0 → Fin (⟨2, ![a, b]⟩ : Shape).rank))
    (hr : (⟨2, ![a, b]⟩ : Shape).ReducesTo [0, 1] S_) (hu : 0 < S_.numel)
    (h : Host.reduce IntOp.andi
          (cmpf .olt (Host.absf (F := Ideal) (φ := .f32) v)
            (broadcastInDim ⟨2, ![a, b]⟩ ![] hb (constant (F := Ideal) S_ .f32 0x7F800000#32)))
          (constantI S_ 1 1#1) hr hu ValueIdx.ix0 = 1#1) : IsReal v := fun i =>
  real_of_abs_lt (v i) (Host.reduce_andi_all _ _ hr hu ValueIdx.ix0 h i)

/-- Under the precondition all five inputs have real entries. -/
theorem reals_of_pre (x : Mat 10000 256) (adj : Mat 10000 10000) (W0 W1 W2 : Mat 256 256)
    (h : fn (F := Ideal) x adj W0 W1 W2 = fun _ => 1#1) :
    IsReal x ∧ IsReal adj ∧ IsReal W0 ∧ IsReal W1 ∧ IsReal W2 := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨hx, hadj⟩ := IntOp.andi_eq_one.1 h01
  exact ⟨isReal_of_all x _ _ _ hx, isReal_of_all adj _ _ _ hadj, isReal_of_all W0 _ _ _ h2,
    isReal_of_all W1 _ _ _ h3, isReal_of_all W2 _ _ _ h4⟩

end Cert.Pre_finite_inputs.Finite

end
-- ==== Proof.Reference.lean ====
/-
  The reference computes the three-layer block.

  At the ideal values the host's `dot_general` of an M×K by a K×N operand is the matrix product and the maximum
  with the broadcast of the zero word is relu; so the term the reference's run ends at — three times a product by
  a weight matrix, a product by the adjacency matrix and a relu — is `block x adj W0 W1 W2`.
-/
import proofs.«115100_g61392262529321_cont_sun_c4_774_23_alg».proof.Proof.Gen.ReferenceIdeal.Run
import proofs.«115100_g61392262529321_cont_sun_c4_774_23_alg».proof.Proof.Gcn
import proofs.«115100_g61392262529321_cont_sun_c4_774_23_alg».proof.Proof.LibPlainDot
import Idealize.ShloMosaic.PureOps.Ideal.Laws

noncomputable section

namespace Cert.ReferenceIdeal.Block

open Cert.ReferenceIdeal Cert.ReferenceIdeal.Gen Cert.Gcn Idealize.ShloMosaic Idealize.ShloMosaic.ValueIdx

/-- The host's plain product is the matrix product. -/
theorem dotGeneral_eq_mm {M K N : Nat} {φ₁ φ₂ : FTy} (prec : Option ContractPrecision)
    (l : FVec Ideal ⟨2, ![M, K]⟩ φ₁) (r : FVec Ideal ⟨2, ![K, N]⟩ φ₂) :
    Host.dotGeneral (DotDims.plain M K N) prec l r = mm l r := by
  funext j
  obtain ⟨p, q, rfl⟩ : ∃ (p : Fin M) (q : Fin N), j = ix2 p q := ⟨j 0, j 1, eq_ix2 j⟩
  exact PlainDot.dotGeneral_apply prec _ l r p q

/-- The printed dimension numbers are those of a plain product. -/
theorem dot_feat : dot_S10000x256_S256x256_S10000x256_1_0_0_1_n_n = DotDims.plain 10000 256 256 := rfl
theorem dot_adj : dot_S10000x10000_S10000x256_S10000x256_1_0_0_1_n_n = DotDims.plain 10000 10000 256 := rfl

/-- The maximum with the broadcast zero word is relu. -/
theorem max_zero_eq_relu (v : FVec Ideal S10000x256 .f32) :
    maximumf v (broadcastInDim S10000x256 ![] bcast_S_S10000x256 (constant (F := Ideal) S_ .f32 0x00000000#32))
      = relu v := by
  funext i
  show max (v i) (Ideal.ofBits .f32 0x00000000#32) = max (v i) 0
  rw [Ideal.ofBits_zero_f32]

/-- The term the reference's run ends at is the block. -/
theorem result_eq (x : FVec Ideal S10000x256 .f32) (adj : FVec Ideal S10000x10000 .f32)
    (W0 W1 W2 : FVec Ideal S256x256 .f32) :
    maximumf (Host.dotGeneral dot_S10000x10000_S10000x256_S10000x256_1_0_0_1_n_n none adj
      (Host.dotGeneral dot_S10000x256_S256x256_S10000x256_1_0_0_1_n_n none
        (maximumf (Host.dotGeneral dot_S10000x10000_S10000x256_S10000x256_1_0_0_1_n_n none adj
          (Host.dotGeneral dot_S10000x256_S256x256_S10000x256_1_0_0_1_n_n none
            (maximumf (Host.dotGeneral dot_S10000x10000_S10000x256_S10000x256_1_0_0_1_n_n none adj
              (Host.dotGeneral dot_S10000x256_S256x256_S10000x256_1_0_0_1_n_n none x W0))
              (broadcastInDim S10000x256 ![] bcast_S_S10000x256 (constant (F := Ideal) S_ .f32 0x00000000#32)))
            W1))
          (broadcastInDim S10000x256 ![] bcast_S_S10000x256 (constant (F := Ideal) S_ .f32 0x00000000#32)))
        W2))
      (broadcastInDim S10000x256 ![] bcast_S_S10000x256 (constant (F := Ideal) S_ .f32 0x00000000#32))
      = block x adj W0 W1 W2 := by
  rw [dot_feat, dot_adj]
  simp only [dotGeneral_eq_mm]
  rw [max_zero_eq_relu, max_zero_eq_relu, max_zero_eq_relu]
  rfl

end Cert.ReferenceIdeal.Block

end
-- ==== Proof.Claims.lean ====
/-
  The five claims.

  The three frames are the generated ones (the reference's is its run with the result dropped). The kernel's
  idealization rewrote nothing, so there is nothing to preserve. For the algebraic claim both runs end at the same
  array, `block x adj W0 W1 W2`: the reference's run ends at that term as written; the fused program's run ends at
  the three fused stages of the launch arrays, which differ from the block only in the first product,
  (adj · x) · W0 against adj · (x · W0), and associativity holds because the precondition makes x, adj and W0
  arrays of real numbers.
-/
import proofs.«115100_g61392262529321_cont_sun_c4_774_23_alg».proof.Defs
import proofs.«115100_g61392262529321_cont_sun_c4_774_23_alg».proof.Proof.Gen.Kernel.Frame
import proofs.«115100_g61392262529321_cont_sun_c4_774_23_alg».proof.Proof.Gen.KernelIdeal.Frame
import proofs.«115100_g61392262529321_cont_sun_c4_774_23_alg».proof.Proof.Gen.ReferenceIdeal
import proofs.«115100_g61392262529321_cont_sun_c4_774_23_alg».proof.Proof.Gen.Pre_finite_inputs
import proofs.«115100_g61392262529321_cont_sun_c4_774_23_alg».proof.Proof.Gen.ReferenceIdeal.Run
import proofs.«115100_g61392262529321_cont_sun_c4_774_23_alg».proof.Proof.KernelRun
import proofs.«115100_g61392262529321_cont_sun_c4_774_23_alg».proof.Proof.Fold
import proofs.«115100_g61392262529321_cont_sun_c4_774_23_alg».proof.Proof.Finite
import proofs.«115100_g61392262529321_cont_sun_c4_774_23_alg».proof.Proof.Reference

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the three-layer block of the launch arrays. -/
theorem algebraic : Cert.algebraic_KernelIdeal_ReferenceIdeal := by
  intro m ρ m' ρ' hpre hagree
  refine ⟨fun c => Cert.Gcn.block (n := 10000) (d := 256)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Whole.run (F := Ideal) m ρ)
    obtain ⟨hx, hadj, hW0, -, -⟩ := Cert.Pre_finite_inputs.Finite.reals_of_pre _ _ _ _ _ (hpre c)
    exact (Cert.KernelIdeal.Fold.result m ρ c).trans (Cert.Gcn.stages_eq_block _ _ _ _ _ hx hadj hW0)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Block.result_eq _ _ _ _ _

end Cert.Proof.Claims

end
-- ==== Proof.lean ====
/-
  A three-layer graph convolution, fused into three kernels, computes the same array as the plain formula.

  The plain formula applies h ↦ relu (adj · (h · W)) three times, with weights W0, W1, W2, to x. The fused program
  converts x in format only, then runs three kernels over strips of rows of the adjacency matrix: the first leaves
  s1 = relu ((adj · x) · W0) · W1 and a copy of adj, the second s2 = relu (adj · s1) · W2, the third relu (adj · s2).
  At the ideal values — extended reals, exact operations, format changes the identity — each kernel's strips tile its
  result and each strip is the same rows of the whole-array formula, so the program ends at the three stages of the
  launch arrays. These differ from the plain formula only in the first product, (adj · x) · W0 against
  adj · (x · W0); associativity of the matrix product needs distributivity, which fails at the infinities, and holds
  here because the precondition makes every input entry a real number.

  Modules: LibMatProd (matrices over the extended reals: product, relu, strips of rows, associativity for real
  entries; over LibRealSums), LibPlainDot (a plain product read at an index), Gcn (the layer, the block, the three fused
  stages), Payloads (what each kernel body stores), Region0 / Region1 / Region2 (each kernel's result arrays from its strips), KernelRun (the program's run
  with the result named), Fold (the result buffer through the three regions), Finite (the precondition gives real
  entries), Reference (the plain program's term is the formula), Claims (the five claims).
-/
import proofs.«115100_g61392262529321_cont_sun_c4_774_23_alg».proof.Defs
import proofs.«115100_g61392262529321_cont_sun_c4_774_23_alg».proof.Proof.Gen.Kernel
import proofs.«115100_g61392262529321_cont_sun_c4_774_23_alg».proof.Proof.Gen.Kernel.Skeleton
import proofs.«115100_g61392262529321_cont_sun_c4_774_23_alg».proof.Proof.Gen.Kernel.Launch
import proofs.«115100_g61392262529321_cont_sun_c4_774_23_alg».proof.Proof.Gen.Kernel.Points
import proofs.«115100_g61392262529321_cont_sun_c4_774_23_alg».proof.Proof.Gen.Kernel.Frame
import proofs.«115100_g61392262529321_cont_sun_c4_774_23_alg».proof.Proof.Gen.KernelIdeal
import proofs.«115100_g61392262529321_cont_sun_c4_774_23_alg».proof.Proof.Gen.KernelIdeal.Skeleton
import proofs.«115100_g61392262529321_cont_sun_c4_774_23_alg».proof.Proof.Gen.KernelIdeal.Launch
import proofs.«115100_g61392262529321_cont_sun_c4_774_23_alg».proof.Proof.Gen.KernelIdeal.Points
import proofs.«115100_g61392262529321_cont_sun_c4_774_23_alg».proof.Proof.Gen.KernelIdeal.Frame
import proofs.«115100_g61392262529321_cont_sun_c4_774_23_alg».proof.Proof.Gen.ReferenceIdeal
import proofs.«115100_g61392262529321_cont_sun_c4_774_23_alg».proof.Proof.Gen.Pre_finite_inputs
import proofs.«115100_g61392262529321_cont_sun_c4_774_23_alg».proof.Proof.Gen.ReferenceIdeal.Run
import proofs.«115100_g61392262529321_cont_sun_c4_774_23_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
